-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S1x1x512 : Shape := ⟨3, ![1, 1, 512]⟩
abbrev S50257x1024 : Shape := ⟨2, ![50257, 1024]⟩
abbrev S3072x1024 : Shape := ⟨2, ![3072, 1024]⟩
abbrev S3072 : Shape := ⟨1, ![3072]⟩
abbrev S1536x1024 : Shape := ⟨2, ![1536, 1024]⟩
abbrev S1536x512 : Shape := ⟨2, ![1536, 512]⟩
abbrev S1536 : Shape := ⟨1, ![1536]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S1x1x512 : S_.BroadcastsInDim S1x1x512 (![] : Fin 0 → Fin S1x1x512.rank)
  reducesTo_S1x1x512_S_d0_1_2 : S1x1x512.ReducesTo [0, 1, 2] S_
  bcast_S_S50257x1024 : S_.BroadcastsInDim S50257x1024 (![] : Fin 0 → Fin S50257x1024.rank)
  reducesTo_S50257x1024_S_d0_1 : S50257x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1536x1024 : S_.BroadcastsInDim S1536x1024 (![] : Fin 0 → Fin S1536x1024.rank)
  reducesTo_S1536x1024_S_d0_1 : S1536x1024.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part3 {F : FTy → Type} [FloatOps F] (main_v48 : IVec S_ 1) (main_v49 : FVec F S1536 .f32) (main_v50 : FVec F S1536 .f32) : IVec S_ 1 :=
  let main_v51 : IVec S1536 1 := cmpf .olt main_v49 main_v50
  let main_c_19 : IVec S_ 1 := constantI S_ 1 1#1
  let main_v52 : IVec S_ 1 := (fun x v => Host.reduce IntOp.andi x v reducesTo_S1536_S_d0 h_S_) main_v51 main_c_19
  let main_v53 : IVec S_ 1 := andi main_v48 main_v52
  main_v53

def fn_part2 {F : FTy → Type} [FloatOps F] (main_arg8 : FVec F S1536x1024 .f32) (main_arg9 : FVec F S1536x512 .f32) (main_arg10 : FVec F S1536 .f32) (main_arg11 : FVec F S1536 .f32) (main_v33 : IVec S_ 1) : IVec S_ 1 :=
  let main_v34 : FVec F S1536x1024 .f32 := Host.absf main_arg8
  let main_cst_12 : FVec F S_ .f32 := constant S_ .f32 0x7F800000#32
  let main_v35 : FVec F S1536x1024 .f32 := broadcastInDim S1536x1024 ![] bcast_S_S1536x1024 main_cst_12
  let main_v36 : IVec S1536x1024 1 := cmpf .olt main_v34 main_v35
  let main_c_13 : IVec S_ 1 := constantI S_ 1 1#1
  let main_v37 : IVec S_ 1 := (fun x v => Host.reduce IntOp.andi x v reducesTo_S1536x1024_S_d0_1 h_S_) main_v36 main_c_13
  let main_v38 : IVec S_ 1 := andi main_v33 main_v37
  let main_v39 : FVec F S1536x512 .f32 := Host.absf main_arg9
  let main_cst_14 : FVec F S_ .f32 := constant S_ .f32 0x7F800000#32
  let main_v40 : FVec F S1536x512 .f32 := broadcastInDim S1536x512 ![] bcast_S_S1536x512 main_cst_14
  let main_v41 : IVec S1536x512 1 := cmpf .olt main_v39 main_v40
  let main_c_15 : IVec S_ 1 := constantI S_ 1 1#1
  let main_v42 : IVec S_ 1 := (fun x v => Host.reduce IntOp.andi x v reducesTo_S1536x512_S_d0_1 h_S_) main_v41 main_c_15
  let main_v43 : IVec S_ 1 := andi main_v38 main_v42
  let main_v44 : FVec F S1536 .f32 := Host.absf main_arg10
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1536 .f32 := Host.absf main_arg11
  let main_cst_18 : FVec F S_ .f32 := constant S_ .f32 0x7F800000#32
  let main_v50 : FVec F S1536 .f32 := broadcastInDim S1536 ![] bcast_S_S1536 main_cst_18
  fn_part3 (F := F) main_v48 main_v49 main_v50

def fn_part1 {F : FTy → Type} [FloatOps F] (main_arg5 : FVec F S3072x1024 .f32) (main_arg6 : FVec F S3072 .f32) (main_arg7 : FVec F S3072 .f32) (main_arg8 : FVec F S1536x1024 .f32) (main_arg9 : FVec F S1536x512 .f32) (main_arg10 : FVec F S1536 .f32) (main_arg11 : FVec F S1536 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072x1024 .f32 := Host.absf main_arg5
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072 .f32 := Host.absf main_arg7
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg8 main_arg9 main_arg10 main_arg11 main_v33

def fn {F : FTy → Type} [FloatOps F] (main_arg0 : IVec S1 32) (main_arg1 : FVec F S1x1x1024 .f32) (main_arg2 : FVec F S1x1x512 .f32) (main_arg3 : FVec F S50257x1024 .f32) (main_arg4 : FVec F S3072x1024 .f32) (main_arg5 : FVec F S3072x1024 .f32) (main_arg6 : FVec F S3072 .f32) (main_arg7 : FVec F S3072 .f32) (main_arg8 : FVec F S1536x1024 .f32) (main_arg9 : FVec F S1536x512 .f32) (main_arg10 : FVec F S1536 .f32) (main_arg11 : FVec F S1536 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x512 .f32 := Host.absf main_arg2
  let main_cst_0 : FVec F S_ .f32 := constant S_ .f32 0x7F800000#32
  let main_v5 : FVec F S1x1x512 .f32 := broadcastInDim S1x1x512 ![] bcast_S_S1x1x512 main_cst_0
  let main_v6 : IVec S1x1x512 1 := cmpf .olt main_v4 main_v5
  let main_c_1 : IVec S_ 1 := constantI S_ 1 1#1
  let main_v7 : IVec S_ 1 := (fun x v => Host.reduce IntOp.andi x v reducesTo_S1x1x512_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg5 main_arg6 main_arg7 main_arg8 main_arg9 main_arg10 main_arg11 main_v13 main_v16
-- ==== Kernel.lean ====
abbrev S1 : Shape := ⟨1, ![1]⟩
abbrev S1x1x1024 : Shape := ⟨3, ![1, 1, 1024]⟩
abbrev S1x1x512 : Shape := ⟨3, ![1, 1, 512]⟩
abbrev S50257x1024 : Shape := ⟨2, ![50257, 1024]⟩
abbrev S3072x1024 : Shape := ⟨2, ![3072, 1024]⟩
abbrev S3072 : Shape := ⟨1, ![3072]⟩
abbrev S1536x1024 : Shape := ⟨2, ![1536, 1024]⟩
abbrev S1536x512 : Shape := ⟨2, ![1536, 512]⟩
abbrev S1536 : Shape := ⟨1, ![1536]⟩
abbrev S_ : Shape := ⟨0, ![]⟩
abbrev S1x1 : Shape := ⟨2, ![1, 1]⟩
abbrev S1x1024 : Shape := ⟨2, ![1, 1024]⟩
abbrev S1x512 : Shape := ⟨2, ![1, 512]⟩
abbrev S1024x3072 : Shape := ⟨2, ![1024, 3072]⟩
abbrev S1024x1536 : Shape := ⟨2, ![1024, 1536]⟩
abbrev S512x1536 : Shape := ⟨2, ![512, 1536]⟩
abbrev S1x3072 : Shape := ⟨2, ![1, 3072]⟩
abbrev S1x1536 : Shape := ⟨2, ![1, 1536]⟩

abbrev nBuf : Space → Nat
  | .hbm => 41
  | .vmem => 14
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x512, .f32⟩
  | .hbm, ⟨3, _⟩ => ⟨S50257x1024, .f32⟩
  | .hbm, ⟨4, _⟩ => ⟨S3072x1024, .f32⟩
  | .hbm, ⟨5, _⟩ => ⟨S3072x1024, .f32⟩
  | .hbm, ⟨6, _⟩ => ⟨S3072, .f32⟩
  | .hbm, ⟨7, _⟩ => ⟨S3072, .f32⟩
  | .hbm, ⟨8, _⟩ => ⟨S1536x1024, .f32⟩
  | .hbm, ⟨9, _⟩ => ⟨S1536x512, .f32⟩
  | .hbm, ⟨10, _⟩ => ⟨S1536, .f32⟩
  | .hbm, ⟨11, _⟩ => ⟨S1536, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S1, .i32⟩
  | .hbm, ⟨19, _⟩ => ⟨S1x1, .i32⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S1024x3072, .f32⟩
  | .hbm, ⟨24, _⟩ => ⟨S1024x3072, .bf16⟩
  | .hbm, ⟨25, _⟩ => ⟨S1024x3072, .f32⟩
  | .hbm, ⟨26, _⟩ => ⟨S1024x3072, .bf16⟩
  | .hbm, ⟨27, _⟩ => ⟨S1024x1536, .f32⟩
  | .hbm, ⟨28, _⟩ => ⟨S1024x1536, .bf16⟩
  | .hbm, ⟨29, _⟩ => ⟨S512x1536, .f32⟩
  | .hbm, ⟨30, _⟩ => ⟨S512x1536, .bf16⟩
  | .hbm, ⟨31, _⟩ => ⟨S1x3072, .f32⟩
  | .hbm, ⟨32, _⟩ => ⟨S1x3072, .f32⟩
  | .hbm, ⟨33, _⟩ => ⟨S1x1536, .f32⟩
  | .hbm, ⟨34, _⟩ => ⟨S1x1536, .f32⟩
  | .hbm, ⟨35, _⟩ => ⟨S1x512, .f32⟩
  | .hbm, ⟨36, _⟩ => ⟨S1x1024, .f32⟩
  | .hbm, ⟨37, _⟩ => ⟨S1x512, .f32⟩
  | .hbm, ⟨38, _⟩ => ⟨S1x1x512, .f32⟩
  | .hbm, ⟨39, _⟩ => ⟨S1x1x1024, .f32⟩
  | .hbm, ⟨40, _⟩ => ⟨S1x1x512, .f32⟩
  | .local _ .vmem, ⟨0, _⟩ => ⟨S1x1024, .f32⟩
  | .local _ .vmem, ⟨1, _⟩ => ⟨S1x1024, .f32⟩
  | .local _ .vmem, ⟨2, _⟩ => ⟨S1x512, .f32⟩
  | .local _ .vmem, ⟨3, _⟩ => ⟨S1024x3072, .bf16⟩
  | .local _ .vmem, ⟨4, _⟩ => ⟨S1024x3072, .bf16⟩
  | .local _ .vmem, ⟨5, _⟩ => ⟨S1x3072, .f32⟩
  | .local _ .vmem, ⟨6, _⟩ => ⟨S1x3072, .f32⟩
  | .local _ .vmem, ⟨7, _⟩ => ⟨S1024x1536, .bf16⟩
  | .local _ .vmem, ⟨8, _⟩ => ⟨S512x1536, .bf16⟩
  | .local _ .vmem, ⟨9, _⟩ => ⟨S1x1536, .f32⟩
  | .local _ .vmem, ⟨10, _⟩ => ⟨S1x1536, .f32⟩
  | .local _ .vmem, ⟨11, _⟩ => ⟨S1x512, .f32⟩
  | .local _ .vmem, ⟨12, _⟩ => ⟨S1x1024, .f32⟩
  | .local _ .vmem, ⟨13, _⟩ => ⟨S1x512, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S1x1x512_S1x512 : S1x1x512.ShapeCasts S1x512
  transposes_S3072x1024_S1024x3072_1_0 : S3072x1024.Transposes [1, 0] S1024x3072
  bitsLt_bf16_f32 : FTy.bits .bf16 < FTy.bits .f32
  transposes_S1536x1024_S1024x1536_1_0 : S1536x1024.Transposes [1, 0] S1024x1536
  transposes_S1536x512_S512x1536_1_0 : S1536x512.Transposes [1, 0] S512x1536
  shapeCasts_S3072_S1x3072 : S3072.ShapeCasts S1x3072
  shapeCasts_S1536_S1x1536 : S1536.ShapeCasts S1x1536
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  shapeCasts_S1x512_S1x1x512 : S1x512.ShapeCasts S1x1x512
  shapeCasts_S1x1024_S1x1x1024 : S1x1024.ShapeCasts S1x1x1024
  gather_S50257x1024_S1x1_S1x1024_1_0_n_n_0_1_11024_wf : GatherDims.WF S50257x1024 S1x1 S1x1024 [1] [0] [] [0] [] 1 ![1, 1024]
  dot_S1x1024_S1024x3072_S1x3072_1_0_0_1_n_n_wf : DotDims.WF S1x1024 S1024x3072 S1x3072 [1] [0] [0] [1] [] []
  dot_S1x1024_S1024x1536_S1x1536_1_0_0_1_n_n_wf : DotDims.WF S1x1024 S1024x1536 S1x1536 [1] [0] [0] [1] [] []
  dot_S1x512_S512x1536_S1x1536_1_0_0_1_n_n_wf : DotDims.WF S1x512 S512x1536 S1x1536 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1536.size a ≤ S1024x1536.size a
  hwx0_7 : ∀ i : grid0.Coords, EltTy.bits .bf16 = 32 ∨ (Rect.block (s := S1024x1536) S1024x1536.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1536.size a ≤ S512x1536.size a
  hwx0_8 : ∀ i : grid0.Coords, EltTy.bits .bf16 = 32 ∨ (Rect.block (s := S512x1536) S512x1536.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1536.size a ≤ S1x1536.size a
  hwx0_9 : ∀ i : grid0.Coords, EltTy.bits .f32 = 32 ∨ (Rect.block (s := S1x1536) S1x1536.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1536.size a ≤ S1x1536.size a
  hwx0_10 : ∀ i : grid0.Coords, EltTy.bits .f32 = 32 ∨ (Rect.block (s := S1x1536) S1x1536.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x1536_S1x1536_1_0_0_1_n_n : DotDims S1x1024 S1024x1536 S1x1536 where
  lhsContracting := [1]
  rhsContracting := [0]
  lhsNonContracting := [0]
  rhsNonContracting := [1]
  lhsBatch := []
  rhsBatch := []
  wf := dot_S1x1024_S1024x1536_S1x1536_1_0_0_1_n_n_wf
def dot_S1x512_S512x1536_S1x1536_1_0_0_1_n_n : DotDims S1x512 S512x1536 S1x1536 where
  lhsContracting := [1]
  rhsContracting := [0]
  lhsNonContracting := [0]
  rhsNonContracting := [1]
  lhsBatch := []
  rhsBatch := []
  wf := dot_S1x512_S512x1536_S1x1536_1_0_0_1_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1024x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S512x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21_0) S1x512.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21_1) S1x1024.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21_2) S1x512.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S1x1x512 : Shape := ⟨3, ![1, 1, 512]⟩
abbrev S50257x1024 : Shape := ⟨2, ![50257, 1024]⟩
abbrev S3072x1024 : Shape := ⟨2, ![3072, 1024]⟩
abbrev S3072 : Shape := ⟨1, ![3072]⟩
abbrev S1536x1024 : Shape := ⟨2, ![1536, 1024]⟩
abbrev S1536x512 : Shape := ⟨2, ![1536, 512]⟩
abbrev S1536 : Shape := ⟨1, ![1536]⟩
abbrev S_ : Shape := ⟨0, ![]⟩
abbrev S1x1 : Shape := ⟨2, ![1, 1]⟩
abbrev S1x1024 : Shape := ⟨2, ![1, 1024]⟩
abbrev S1024x3072 : Shape := ⟨2, ![1024, 3072]⟩
abbrev S1x3072 : Shape := ⟨2, ![1, 3072]⟩
abbrev S1x512 : Shape := ⟨2, ![1, 512]⟩
abbrev S1024x1536 : Shape := ⟨2, ![1024, 1536]⟩
abbrev S1x1536 : Shape := ⟨2, ![1, 1536]⟩
abbrev S512x1536 : Shape := ⟨2, ![512, 1536]⟩

abbrev nBuf : Space → Nat
  | .hbm => 108
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x512, .f32⟩
  | .hbm, ⟨3, _⟩ => ⟨S50257x1024, .f32⟩
  | .hbm, ⟨4, _⟩ => ⟨S3072x1024, .f32⟩
  | .hbm, ⟨5, _⟩ => ⟨S3072x1024, .f32⟩
  | .hbm, ⟨6, _⟩ => ⟨S3072, .f32⟩
  | .hbm, ⟨7, _⟩ => ⟨S3072, .f32⟩
  | .hbm, ⟨8, _⟩ => ⟨S1536x1024, .f32⟩
  | .hbm, ⟨9, _⟩ => ⟨S1536x512, .f32⟩
  | .hbm, ⟨10, _⟩ => ⟨S1536, .f32⟩
  | .hbm, ⟨11, _⟩ => ⟨S1536, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S1, .i32⟩
  | .hbm, ⟨19, _⟩ => ⟨S1x1, .i32⟩
  | .hbm, ⟨20, _⟩ => ⟨S1x1024, .f32⟩
  | .hbm, ⟨21, _⟩ => ⟨S1x1024, .f32⟩
  | .hbm, ⟨22, _⟩ => ⟨S1024x3072, .f32⟩
  | .hbm, ⟨23, _⟩ => ⟨S1x3072, .f32⟩
  | .hbm, ⟨24, _⟩ => ⟨S1x3072, .f32⟩
  | .hbm, ⟨25, _⟩ => ⟨S1x3072, .f32⟩
  | .hbm, ⟨26, _⟩ => ⟨S1024x3072, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x512, .f32⟩
  | .hbm, ⟨64, _⟩ => ⟨S1024x1536, .f32⟩
  | .hbm, ⟨65, _⟩ => ⟨S1x1536, .f32⟩
  | .hbm, ⟨66, _⟩ => ⟨S1x1536, .f32⟩
  | .hbm, ⟨67, _⟩ => ⟨S1x1536, .f32⟩
  | .hbm, ⟨68, _⟩ => ⟨S512x1536, .f32⟩
  | .hbm, ⟨69, _⟩ => ⟨S1x1536, .f32⟩
  | .hbm, ⟨70, _⟩ => ⟨S1x1536, .f32⟩
  | .hbm, ⟨71, _⟩ => ⟨S1x1536, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S1x512, .f32⟩
  | .hbm, ⟨77, _⟩ => ⟨S1x512, .f32⟩
  | .hbm, ⟨78, _⟩ => ⟨S1x512, .f32⟩
  | .hbm, ⟨79, _⟩ => ⟨S1x512, .f32⟩
  | .hbm, ⟨80, _⟩ => ⟨S1x512, .f32⟩
  | .hbm, ⟨81, _⟩ => ⟨S_, .f32⟩
  | .hbm, ⟨82, _⟩ => ⟨S1x512, .f32⟩
  | .hbm, ⟨83, _⟩ => ⟨S1x512, .f32⟩
  | .hbm, ⟨84, _⟩ => ⟨S_, .f32⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S_, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S1x512, .f32⟩
  | .hbm, ⟨97, _⟩ => ⟨S1x512, .f32⟩
  | .hbm, ⟨98, _⟩ => ⟨S1x512, .f32⟩
  | .hbm, ⟨99, _⟩ => ⟨S_, .f32⟩
  | .hbm, ⟨100, _⟩ => ⟨S1x512, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S1x512, .f32⟩
  | .hbm, ⟨105, _⟩ => ⟨S1x1x512, .f32⟩
  | .hbm, ⟨106, _⟩ => ⟨S1x1x1024, .f32⟩
  | .hbm, ⟨107, _⟩ => ⟨S1x1x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_5 : Ref sig .tc := ⟨.hbm, 81, rfl⟩
abbrev main_v62 : Ref sig .tc := ⟨.hbm, 82, rfl⟩
abbrev main_v63 : Ref sig .tc := ⟨.hbm, 83, rfl⟩
abbrev main_cst_6 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_cst_8 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_9 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x1024 : S_.BroadcastsInDim S1x1024 (![] : Fin 0 → Fin S1x1024.rank)
  shapeCasts_S1x1x512_S1x512 : S1x1x512.ShapeCasts S1x512
  transposes_S1536x1024_S1024x1536_1_0 : S1536x1024.Transposes [1, 0] S1024x1536
  bcast_S1536_S1x1536_1 : S1536.BroadcastsInDim S1x1536 (![1] : Fin 1 → Fin S1x1536.rank)
  transposes_S1536x512_S512x1536_1_0 : S1536x512.Transposes [1, 0] S512x1536
  slices_S1x1536_S1x512_0_0 : S1x1536.Slices ![0, 0] S1x512
  slices_S1x1536_S1x512_0_512 : S1x1536.Slices ![0, 512] S1x512
  slices_S1x1536_S1x512_0_1024 : S1x1536.Slices ![0, 1024] S1x512
  bcast_S_S1x512 : S_.BroadcastsInDim S1x512 (![] : Fin 0 → Fin S1x512.rank)
  shapeCasts_S1x512_S1x1x512 : S1x512.ShapeCasts S1x1x512
  shapeCasts_S1x1024_S1x1x1024 : S1x1024.ShapeCasts S1x1x1024
  gather_S50257x1024_S1x1_S1x1024_1_0_n_n_0_1_11024_wf : GatherDims.WF S50257x1024 S1x1 S1x1024 [1] [0] [] [0] [] 1 ![1, 1024]
  dot_S1x1024_S1024x3072_S1x3072_1_0_0_1_n_n_wf : DotDims.WF S1x1024 S1024x3072 S1x3072 [1] [0] [0] [1] [] []
  dot_S1x1024_S1024x1536_S1x1536_1_0_0_1_n_n_wf : DotDims.WF S1x1024 S1024x1536 S1x1536 [1] [0] [0] [1] [] []
  dot_S1x512_S512x1536_S1x1536_1_0_0_1_n_n_wf : DotDims.WF S1x512 S512x1536 S1x1536 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x1536_S1x1536_1_0_0_1_n_n : DotDims S1x1024 S1024x1536 S1x1536 where
  lhsContracting := [1]
  rhsContracting := [0]
  lhsNonContracting := [0]
  rhsNonContracting := [1]
  lhsBatch := []
  rhsBatch := []
  wf := dot_S1x1024_S1024x1536_S1x1536_1_0_0_1_n_n_wf
def dot_S1x512_S512x1536_S1x1536_1_0_0_1_n_n : DotDims S1x512 S512x1536 S1x1536 where
  lhsContracting := [1]
  rhsContracting := [0]
  lhsNonContracting := [0]
  rhsNonContracting := [1]
  lhsBatch := []
  rhsBatch := []
  wf := dot_S1x512_S512x1536_S1x1536_1_0_0_1_n_n_wf

class Facts : Prop extends Facts₀ where

variable [Facts]
-- ==== Proof.KernelValue.lean ====
/-
  What the fused kernel leaves in its three result arrays, as functions of the twelve argument arrays.

  The program is a two-layer gated recurrent cell on one row. Before the kernel runs, the host picks the
  token's row of the embedding table (a negative index counted from the end), drops the unit axes of the two
  hidden states, transposes the four weight matrices, and lays each bias out as a row. The kernel has a grid of
  one point and every window's block is its whole array, so each staged block IS the array the host wrote, and
  the one write-back of each output covers it. After the kernel the host restores the unit axes.

  Written out: with x the embedding row and h the old first state,
    gx = x·W_ih1ᵀ + b_ih1,  gh = h·W_hh1ᵀ + b_hh1,  r = σ(gx₀ + gh₀),  z = σ(gx₁ + gh₁),
    n = tanh(gx₂ + r·gh₂),  h' = (1 − z)·n + z·h,
  (subscripts the three thirds of gx and of gh), and the second layer the same with h' for x and the old
  second state for h. `newH1` is h' and `newH2` the new second state; the results are newH2, newH1, newH2 with
  two unit axes in front.
-/
import proofs.«181842_j18863496364259_2_alg».proof.Proof.Gen.KernelIdeal.Frame
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F]

/-! ## The arrays the host writes before the kernel, as functions of the arguments -/

/-- The token index as the gather takes it: a negative index `i` means row `i + 50257`, and the index is laid out
    as a [1, 1] array. -/
def rowIndex (a0 : (⟨S1, .i32⟩ : BufTy).Contents (Elt F)) : (⟨S1x1, .i32⟩ : BufTy).Contents (Elt F) :=
  broadcastInDim S1x1 ![0] bcast_S1_S1x1_0
    (select (cmpi .slt a0 (broadcastInDim S1 ![] bcast_S_S1 (constantI S_ 32 0#32)))
      (addi a0 (broadcastInDim S1 ![] bcast_S_S1 (constantI S_ 32 50257#32))) a0)

/-- The embedding row of the token: one row of the [50257, 1024] table. -/
def embRow (a0 : (⟨S1, .i32⟩ : BufTy).Contents (Elt F)) (a3 : (⟨S50257x1024, .f32⟩ : BufTy).Contents (Elt F)) :
    (⟨S1x1024, .f32⟩ : BufTy).Contents (Elt F) :=
  Host.gather gather_S50257x1024_S1x1_S1x1024_1_0_n_n_0_1_11024 a3 (rowIndex (F := F) a0)

/-- The new first-layer state h' as one function of the arguments it depends on: the kernel's first payload of
    the embedding row, the old state as a row, the two transposed weight matrices and the two biases as rows. -/
def newH1 (a0 : (⟨S1, .i32⟩ : BufTy).Contents (Elt F)) (a1 : (⟨S1x1x1024, .f32⟩ : BufTy).Contents (Elt F))
    (a3 : (⟨S50257x1024, .f32⟩ : BufTy).Contents (Elt F)) (a4 a5 : (⟨S3072x1024, .f32⟩ : BufTy).Contents (Elt F))
    (a6 a7 : (⟨S3072, .f32⟩ : BufTy).Contents (Elt F)) : FVec F S1x1024 .f32 :=
  k0_pay2 (embRow (F := F) a0 a3) (shapeCast S1x1024 a1 shapeCasts_S1x1x1024_S1x1024)
    (truncf .bf16 (transpose S1024x3072 [1, 0] a4 transposes_S3072x1024_S1024x3072_1_0) bitsLt_bf16_f32)
    (shapeCast S1x3072 a6 shapeCasts_S3072_S1x3072)
    (truncf .bf16 (transpose S1024x3072 [1, 0] a5 transposes_S3072x1024_S1024x3072_1_0) bitsLt_bf16_f32)
    (shapeCast S1x3072 a7 shapeCasts_S3072_S1x3072)

/-- The new second-layer state: the kernel's second payload, whose input row is h' in the matmul's format. -/
def newH2 (a0 : (⟨S1, .i32⟩ : BufTy).Contents (Elt F)) (a1 : (⟨S1x1x1024, .f32⟩ : BufTy).Contents (Elt F))
    (a2 : (⟨S1x1x512, .f32⟩ : BufTy).Contents (Elt F))
    (a3 : (⟨S50257x1024, .f32⟩ : BufTy).Contents (Elt F)) (a4 a5 : (⟨S3072x1024, .f32⟩ : BufTy).Contents (Elt F))
    (a6 a7 : (⟨S3072, .f32⟩ : BufTy).Contents (Elt F)) (a8 : (⟨S1536x1024, .f32⟩ : BufTy).Contents (Elt F))
    (a9 : (⟨S1536x512, .f32⟩ : BufTy).Contents (Elt F)) (a10 a11 : (⟨S1536, .f32⟩ : BufTy).Contents (Elt F)) :
    FVec F S1x512 .f32 :=
  k0_pay1 (k0_pay3 (shapeCast S1x512 a2 shapeCasts_S1x1x512_S1x512))
    (k0_pay4 (embRow (F := F) a0 a3) (shapeCast S1x1024 a1 shapeCasts_S1x1x1024_S1x1024)
      (truncf .bf16 (transpose S1024x3072 [1, 0] a4 transposes_S3072x1024_S1024x3072_1_0) bitsLt_bf16_f32)
      (shapeCast S1x3072 a6 shapeCasts_S3072_S1x3072)
      (truncf .bf16 (transpose S1024x3072 [1, 0] a5 transposes_S3072x1024_S1024x3072_1_0) bitsLt_bf16_f32)
      (shapeCast S1x3072 a7 shapeCasts_S3072_S1x3072))
    (k0_pay5 (shapeCast S1x512 a2 shapeCasts_S1x1x512_S1x512))
    (truncf .bf16 (transpose S1024x1536 [1, 0] a8 transposes_S1536x1024_S1024x1536_1_0) bitsLt_bf16_f32)
    (shapeCast S1x1536 a10 shapeCasts_S1536_S1x1536)
    (truncf .bf16 (transpose S512x1536 [1, 0] a9 transposes_S1536x512_S512x1536_1_0) bitsLt_bf16_f32)
    (shapeCast S1x1536 a11 shapeCasts_S1536_S1x1536)

variable (m : (ℓ : Loc nD τ sig) → Buf (Elt F) ℓ) (ρ : Dev nD → PrngReg)

/-! ## Each staged block is the whole array -/

/-- Input window 0's one block is its whole array `main_v6`. -/
theorem block0 (c : Dev nD) (t : Fin cfg0.N) : iblk m c 0 t = V m c main_v6 := by
  obtain rfl : t = t0_0 := fin_N0 t
  have hz' : (fun a => win0_0.index t0_0 a * main_v6.ty.shape.size a) = fun _ => 0 := funext fun a => by fin_cases a <;> decide
  exact Memref.read_access_unit_zero (Elt F) main_v6 hz' (fun a => by rw [congrFun hz' a]; simp) (V m c main_v6)

/-- Input window 1's one block is its whole array `main_v7`. -/
theorem block1 (c : Dev nD) (t : Fin cfg0.N) : iblk m c 1 t = V m c main_v7 := by
  obtain rfl : t = t0_0 := fin_N0 t
  have hz' : (fun a => win0_1.index t0_0 a * main_v7.ty.shape.size a) = fun _ => 0 := funext fun a => by fin_cases a <;> decide
  exact Memref.read_access_unit_zero (Elt F) main_v7 hz' (fun a => by rw [congrFun hz' a]; simp) (V m c main_v7)

/-- Input window 2's one block is its whole array `main_v8`. -/
theorem block2 (c : Dev nD) (t : Fin cfg0.N) : iblk m c 2 t = V m c main_v8 := by
  obtain rfl : t = t0_0 := fin_N0 t
  have hz' : (fun a => win0_2.index t0_0 a * main_v8.ty.shape.size a) = fun _ => 0 := funext fun a => by fin_cases a <;> decide
  exact Memref.read_access_unit_zero (Elt F) main_v8 hz' (fun a => by rw [congrFun hz' a]; simp) (V m c main_v8)

/-- Input window 3's one block is its whole array `main_v10`. -/
theorem block3 (c : Dev nD) (t : Fin cfg0.N) : iblk m c 3 t = V m c main_v10 := by
  obtain rfl : t = t0_0 := fin_N0 t
  have hz' : (fun a => win0_3.index t0_0 a * main_v10.ty.shape.size a) = fun _ => 0 := funext fun a => by fin_cases a <;> decide
  exact Memref.read_access_unit_zero (Elt F) main_v10 hz' (fun a => by rw [congrFun hz' a]; simp) (V m c main_v10)

/-- Input window 4's one block is its whole array `main_v12`. -/
theorem block4 (c : Dev nD) (t : Fin cfg0.N) : iblk m c 4 t = V m c main_v12 := by
  obtain rfl : t = t0_0 := fin_N0 t
  have hz' : (fun a => win0_4.index t0_0 a * main_v12.ty.shape.size a) = fun _ => 0 := funext fun a => by fin_cases a <;> decide
  exact Memref.read_access_unit_zero (Elt F) main_v12 hz' (fun a => by rw [congrFun hz' a]; simp) (V m c main_v12)

/-- Input window 5's one block is its whole array `main_v17`. -/
theorem block5 (c : Dev nD) (t : Fin cfg0.N) : iblk m c 5 t = V m c main_v17 := by
  obtain rfl : t = t0_0 := fin_N0 t
  have hz' : (fun a => win0_5.index t0_0 a * main_v17.ty.shape.size a) = fun _ => 0 := funext fun a => by fin_cases a <;> decide
  exact Memref.read_access_unit_zero (Elt F) main_v17 hz' (fun a => by rw [congrFun hz' a]; simp) (V m c main_v17)

/-- Input window 6's one block is its whole array `main_v18`. -/
theorem block6 (c : Dev nD) (t : Fin cfg0.N) : iblk m c 6 t = V m c main_v18 := by
  obtain rfl : t = t0_0 := fin_N0 t
  have hz' : (fun a => win0_6.index t0_0 a * main_v18.ty.shape.size a) = fun _ => 0 := funext fun a => by fin_cases a <;> decide
  exact Memref.read_access_unit_zero (Elt F) main_v18 hz' (fun a => by rw [congrFun hz' a]; simp) (V m c main_v18)

/-- Input window 7's one block is its whole array `main_v14`. -/
theorem block7 (c : Dev nD) (t : Fin cfg0.N) : iblk m c 7 t = V m c main_v14 := by
  obtain rfl : t = t0_0 := fin_N0 t
  have hz' : (fun a => win0_7.index t0_0 a * main_v14.ty.shape.size a) = fun _ => 0 := funext fun a => by fin_cases a <;> decide
  exact Memref.read_access_unit_zero (Elt F) main_v14 hz' (fun a => by rw [congrFun hz' a]; simp) (V m c main_v14)

/-- Input window 8's one block is its whole array `main_v16`. -/
theorem block8 (c : Dev nD) (t : Fin cfg0.N) : iblk m c 8 t = V m c main_v16 := by
  obtain rfl : t = t0_0 := fin_N0 t
  have hz' : (fun a => win0_8.index t0_0 a * main_v16.ty.shape.size a) = fun _ => 0 := funext fun a => by fin_cases a <;> decide
  exact Memref.read_access_unit_zero (Elt F) main_v16 hz' (fun a => by rw [congrFun hz' a]; simp) (V m c main_v16)

/-- Input window 9's one block is its whole array `main_v19`. -/
theorem block9 (c : Dev nD) (t : Fin cfg0.N) : iblk m c 9 t = V m c main_v19 := by
  obtain rfl : t = t0_0 := fin_N0 t
  have hz' : (fun a => win0_9.index t0_0 a * main_v19.ty.shape.size a) = fun _ => 0 := funext fun a => by fin_cases a <;> decide
  exact Memref.read_access_unit_zero (Elt F) main_v19 hz' (fun a => by rw [congrFun hz' a]; simp) (V m c main_v19)

/-- Input window 10's one block is its whole array `main_v20`. -/
theorem block10 (c : Dev nD) (t : Fin cfg0.N) : iblk m c 10 t = V m c main_v20 := by
  obtain rfl : t = t0_0 := fin_N0 t
  have hz' : (fun a => win0_10.index t0_0 a * main_v20.ty.shape.size a) = fun _ => 0 := funext fun a => by fin_cases a <;> decide
  exact Memref.read_access_unit_zero (Elt F) main_v20 hz' (fun a => by rw [congrFun hz' a]; simp) (V m c main_v20)

/-! ## What the one write-back of each output writes, and the array after the run -/

theorem hz : (![0, 0] : Fin 2 → Nat) = fun _ => 0 := funext fun a => by fin_cases a <;> rfl

/-- The new first state over the arrays as the kernel finds them. -/
def stagedH1 (c : Dev nD) : FVec F S1x1024 .f32 :=
  k0_pay2 (V m c main_v6) (V m c main_v7) (V m c main_v10) (V m c main_v17) (V m c main_v12) (V m c main_v18)

/-- The new second state over the arrays as the kernel finds them. -/
def stagedH2 (c : Dev nD) : FVec F S1x512 .f32 :=
  k0_pay1 (k0_pay3 (V m c main_v8))
    (k0_pay4 (V m c main_v6) (V m c main_v7) (V m c main_v10) (V m c main_v17) (V m c main_v12) (V m c main_v18))
    (k0_pay5 (V m c main_v8)) (V m c main_v14) (V m c main_v19) (V m c main_v16) (V m c main_v20)

/-- Output window 11's one write-back writes the new second state: its block is the whole of `main_v21_0`. -/
theorem wrote11 (c : Dev nD) (t : Fin cfg0.N) :
    (dats m 0 c).flushed 11 t = ((cfg0.win 11).blk t).view.read (Elt F) (stagedH2 m c) := by
  show (cfg0.win 11).cut (grid0.coords t) ((dats m 0 c).after 11 t) = _
  rw [after0_11]
  unfold out0_11
  rw [View.canon_unit_zero hz]
  simp only [View.ld_unit_zero (S := S1x1024) hz, View.ld_unit_zero (S := S1x512) hz, View.ld_unit_zero (S := S1024x3072) hz, View.ld_unit_zero (S := S1x3072) hz, View.ld_unit_zero (S := S1024x1536) hz, View.ld_unit_zero (S := S512x1536) hz, View.ld_unit_zero (S := S1x1536) hz]
  rw [block0 m c t, block1 m c t, block2 m c t, block3 m c t, block4 m c t, block5 m c t, block6 m c t, block7 m c t, block8 m c t, block9 m c t, block10 m c t]
  obtain rfl : t = t0_0 := fin_N0 t
  have hz' : (fun a => win0_11.index t0_0 a * main_v21_0.ty.shape.size a) = fun _ => 0 := funext fun a => by fin_cases a <;> decide
  exact (Memref.read_access_unit_zero (Elt F) main_v21_0 hz' (fun a => by rw [congrFun hz' a]; simp) (stagedH2 m c)).symm

/-- So `main_v21_0` ends holding it: the one block covers the array. -/
theorem final11 (c : Dev nD) : (dats m 0 c).arrAt 11 cfg0.N = stagedH2 m c :=
  (dats m 0 c).arrAt_eq_of_cover 11 (stagedH2 m c) (fun t _ => wrote11 m c t) fun i =>
    ⟨t0_0, flush0_11 t0_0, by
      show i ∈ ((View.whole main_v21_0).slice (win0_11.rect t0_0)).set
      rw [View.set_slice_whole, Rect.mem_set_unit]
      intro a
      have h0 : (i 0 : Nat) < 1 := (i 0).isLt
      have h1 : (i 1 : Nat) < 512 := (i 1).isLt
      match a with
      | ⟨0, _⟩ =>
        show win0_11.index t0_0 0 * win0_11.size 0 ≤ (i 0 : Nat) ∧ (i 0 : Nat) < win0_11.index t0_0 0 * win0_11.size 0 + win0_11.xsize (grid0.coords t0_0) 0
        rw [show win0_11.index t0_0 0 * win0_11.size 0 = 0 from by decide +kernel, show win0_11.xsize (grid0.coords t0_0) 0 = 1 from by decide +kernel]; omega
      | ⟨1, _⟩ =>
        show win0_11.index t0_0 1 * win0_11.size 1 ≤ (i 1 : Nat) ∧ (i 1 : Nat) < win0_11.index t0_0 1 * win0_11.size 1 + win0_11.xsize (grid0.coords t0_0) 1
        rw [show win0_11.index t0_0 1 * win0_11.size 1 = 0 from by decide +kernel, show win0_11.xsize (grid0.coords t0_0) 1 = 512 from by decide +kernel]; omega⟩

/-- Output window 12's one write-back writes the new first state: its block is the whole of `main_v21_1`. -/
theorem wrote12 (c : Dev nD) (t : Fin cfg0.N) :
    (dats m 0 c).flushed 12 t = ((cfg0.win 12).blk t).view.read (Elt F) (stagedH1 m c) := by
  show (cfg0.win 12).cut (grid0.coords t) ((dats m 0 c).after 12 t) = _
  rw [after0_12]
  unfold out0_12
  rw [View.canon_unit_zero hz]
  simp only [View.ld_unit_zero (S := S1x1024) hz, View.ld_unit_zero (S := S1x512) hz, View.ld_unit_zero (S := S1024x3072) hz, View.ld_unit_zero (S := S1x3072) hz, View.ld_unit_zero (S := S1024x1536) hz, View.ld_unit_zero (S := S512x1536) hz, View.ld_unit_zero (S := S1x1536) hz]
  rw [block0 m c t, block1 m c t, block3 m c t, block5 m c t, block4 m c t, block6 m c t]
  obtain rfl : t = t0_0 := fin_N0 t
  have hz' : (fun a => win0_12.index t0_0 a * main_v21_1.ty.shape.size a) = fun _ => 0 := funext fun a => by fin_cases a <;> decide
  exact (Memref.read_access_unit_zero (Elt F) main_v21_1 hz' (fun a => by rw [congrFun hz' a]; simp) (stagedH1 m c)).symm

/-- So `main_v21_1` ends holding it: the one block covers the array. -/
theorem final12 (c : Dev nD) : (dats m 0 c).arrAt 12 cfg0.N = stagedH1 m c :=
  (dats m 0 c).arrAt_eq_of_cover 12 (stagedH1 m c) (fun t _ => wrote12 m c t) fun i =>
    ⟨t0_0, flush0_12 t0_0, by
      show i ∈ ((View.whole main_v21_1).slice (win0_12.rect t0_0)).set
      rw [View.set_slice_whole, Rect.mem_set_unit]
      intro a
      have h0 : (i 0 : Nat) < 1 := (i 0).isLt
      have h1 : (i 1 : Nat) < 1024 := (i 1).isLt
      match a with
      | ⟨0, _⟩ =>
        show win0_12.index t0_0 0 * win0_12.size 0 ≤ (i 0 : Nat) ∧ (i 0 : Nat) < win0_12.index t0_0 0 * win0_12.size 0 + win0_12.xsize (grid0.coords t0_0) 0
        rw [show win0_12.index t0_0 0 * win0_12.size 0 = 0 from by decide +kernel, show win0_12.xsize (grid0.coords t0_0) 0 = 1 from by decide +kernel]; omega
      | ⟨1, _⟩ =>
        show win0_12.index t0_0 1 * win0_12.size 1 ≤ (i 1 : Nat) ∧ (i 1 : Nat) < win0_12.index t0_0 1 * win0_12.size 1 + win0_12.xsize (grid0.coords t0_0) 1
        rw [show win0_12.index t0_0 1 * win0_12.size 1 = 0 from by decide +kernel, show win0_12.xsize (grid0.coords t0_0) 1 = 1024 from by decide +kernel]; omega⟩

/-- Output window 13's one write-back writes the new second state: its block is the whole of `main_v21_2`. -/
theorem wrote13 (c : Dev nD) (t : Fin cfg0.N) :
    (dats m 0 c).flushed 13 t = ((cfg0.win 13).blk t).view.read (Elt F) (stagedH2 m c) := by
  show (cfg0.win 13).cut (grid0.coords t) ((dats m 0 c).after 13 t) = _
  rw [after0_13]
  unfold out0_13
  rw [View.canon_unit_zero hz]
  simp only [View.ld_unit_zero (S := S1x1024) hz, View.ld_unit_zero (S := S1x512) hz, View.ld_unit_zero (S := S1024x3072) hz, View.ld_unit_zero (S := S1x3072) hz, View.ld_unit_zero (S := S1024x1536) hz, View.ld_unit_zero (S := S512x1536) hz, View.ld_unit_zero (S := S1x1536) hz]
  rw [block0 m c t, block1 m c t, block2 m c t, block3 m c t, block4 m c t, block5 m c t, block6 m c t, block7 m c t, block8 m c t, block9 m c t, block10 m c t]
  obtain rfl : t = t0_0 := fin_N0 t
  have hz' : (fun a => win0_13.index t0_0 a * main_v21_2.ty.shape.size a) = fun _ => 0 := funext fun a => by fin_cases a <;> decide
  exact (Memref.read_access_unit_zero (Elt F) main_v21_2 hz' (fun a => by rw [congrFun hz' a]; simp) (stagedH2 m c)).symm

/-- So `main_v21_2` ends holding it: the one block covers the array. -/
theorem final13 (c : Dev nD) : (dats m 0 c).arrAt 13 cfg0.N = stagedH2 m c :=
  (dats m 0 c).arrAt_eq_of_cover 13 (stagedH2 m c) (fun t _ => wrote13 m c t) fun i =>
    ⟨t0_0, flush0_13 t0_0, by
      show i ∈ ((View.whole main_v21_2).slice (win0_13.rect t0_0)).set
      rw [View.set_slice_whole, Rect.mem_set_unit]
      intro a
      have h0 : (i 0 : Nat) < 1 := (i 0).isLt
      have h1 : (i 1 : Nat) < 512 := (i 1).isLt
      match a with
      | ⟨0, _⟩ =>
        show win0_13.index t0_0 0 * win0_13.size 0 ≤ (i 0 : Nat) ∧ (i 0 : Nat) < win0_13.index t0_0 0 * win0_13.size 0 + win0_13.xsize (grid0.coords t0_0) 0
        rw [show win0_13.index t0_0 0 * win0_13.size 0 = 0 from by decide +kernel, show win0_13.xsize (grid0.coords t0_0) 0 = 1 from by decide +kernel]; omega
      | ⟨1, _⟩ =>
        show win0_13.index t0_0 1 * win0_13.size 1 ≤ (i 1 : Nat) ∧ (i 1 : Nat) < win0_13.index t0_0 1 * win0_13.size 1 + win0_13.xsize (grid0.coords t0_0) 1
        rw [show win0_13.index t0_0 1 * win0_13.size 1 = 0 from by decide +kernel, show win0_13.xsize (grid0.coords t0_0) 1 = 512 from by decide +kernel]; omega⟩

/-! ## The arrays the kernel finds are the host's layouts of the arguments -/

/-- `main_v6` when the kernel starts: the token's embedding row. -/
theorem entry_main_v6 (c : Dev nD) : V m c main_v6 = embRow (F := F) (m ((c.tc : Thread nD τ).loc main_arg0)) (m ((c.tc : Thread nD τ).loc main_arg3)) := by
  show StableHlo.after hostOps0 (fun b => m (c, b)) (Proc.devRef .tc main_v6) = _
  after_results <;> rfl

/-- `main_v7` when the kernel starts: the old first state as a row. -/
theorem entry_main_v7 (c : Dev nD) : V m c main_v7 = shapeCast S1x1024 (m ((c.tc : Thread nD τ).loc main_arg1)) shapeCasts_S1x1x1024_S1x1024 := by
  show StableHlo.after hostOps0 (fun b => m (c, b)) (Proc.devRef .tc main_v7) = _
  after_results <;> rfl

/-- `main_v8` when the kernel starts: the old second state as a row. -/
theorem entry_main_v8 (c : Dev nD) : V m c main_v8 = shapeCast S1x512 (m ((c.tc : Thread nD τ).loc main_arg2)) shapeCasts_S1x1x512_S1x512 := by
  show StableHlo.after hostOps0 (fun b => m (c, b)) (Proc.devRef .tc main_v8) = _
  after_results <;> rfl

/-- `main_v10` when the kernel starts: W_ih1 transposed. -/
theorem entry_main_v10 (c : Dev nD) : V m c main_v10 = truncf .bf16 (transpose S1024x3072 [1, 0] (m ((c.tc : Thread nD τ).loc main_arg4)) transposes_S3072x1024_S1024x3072_1_0) bitsLt_bf16_f32 := by
  show StableHlo.after hostOps0 (fun b => m (c, b)) (Proc.devRef .tc main_v10) = _
  after_results <;> rfl

/-- `main_v12` when the kernel starts: W_hh1 transposed. -/
theorem entry_main_v12 (c : Dev nD) : V m c main_v12 = truncf .bf16 (transpose S1024x3072 [1, 0] (m ((c.tc : Thread nD τ).loc main_arg5)) transposes_S3072x1024_S1024x3072_1_0) bitsLt_bf16_f32 := by
  show StableHlo.after hostOps0 (fun b => m (c, b)) (Proc.devRef .tc main_v12) = _
  after_results <;> rfl

/-- `main_v14` when the kernel starts: W_ih2 transposed. -/
theorem entry_main_v14 (c : Dev nD) : V m c main_v14 = truncf .bf16 (transpose S1024x1536 [1, 0] (m ((c.tc : Thread nD τ).loc main_arg8)) transposes_S1536x1024_S1024x1536_1_0) bitsLt_bf16_f32 := by
  show StableHlo.after hostOps0 (fun b => m (c, b)) (Proc.devRef .tc main_v14) = _
  after_results <;> rfl

/-- `main_v16` when the kernel starts: W_hh2 transposed. -/
theorem entry_main_v16 (c : Dev nD) : V m c main_v16 = truncf .bf16 (transpose S512x1536 [1, 0] (m ((c.tc : Thread nD τ).loc main_arg9)) transposes_S1536x512_S512x1536_1_0) bitsLt_bf16_f32 := by
  show StableHlo.after hostOps0 (fun b => m (c, b)) (Proc.devRef .tc main_v16) = _
  after_results <;> rfl

/-- `main_v17` when the kernel starts: b_ih1 as a row. -/
theorem entry_main_v17 (c : Dev nD) : V m c main_v17 = shapeCast S1x3072 (m ((c.tc : Thread nD τ).loc main_arg6)) shapeCasts_S3072_S1x3072 := by
  show StableHlo.after hostOps0 (fun b => m (c, b)) (Proc.devRef .tc main_v17) = _
  after_results <;> rfl

/-- `main_v18` when the kernel starts: b_hh1 as a row. -/
theorem entry_main_v18 (c : Dev nD) : V m c main_v18 = shapeCast S1x3072 (m ((c.tc : Thread nD τ).loc main_arg7)) shapeCasts_S3072_S1x3072 := by
  show StableHlo.after hostOps0 (fun b => m (c, b)) (Proc.devRef .tc main_v18) = _
  after_results <;> rfl

/-- `main_v19` when the kernel starts: b_ih2 as a row. -/
theorem entry_main_v19 (c : Dev nD) : V m c main_v19 = shapeCast S1x1536 (m ((c.tc : Thread nD τ).loc main_arg10)) shapeCasts_S1536_S1x1536 := by
  show StableHlo.after hostOps0 (fun b => m (c, b)) (Proc.devRef .tc main_v19) = _
  after_results <;> rfl

/-- `main_v20` when the kernel starts: b_hh2 as a row. -/
theorem entry_main_v20 (c : Dev nD) : V m c main_v20 = shapeCast S1x1536 (m ((c.tc : Thread nD τ).loc main_arg11)) shapeCasts_S1536_S1x1536 := by
  show StableHlo.after hostOps0 (fun b => m (c, b)) (Proc.devRef .tc main_v20) = _
  after_results <;> rfl

/-- The staged first state is `newH1` of the arguments. -/
theorem stagedH1_eq (c : Dev nD) : stagedH1 m c = newH1 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold stagedH1 newH1
  rw [entry_main_v6 m c, entry_main_v7 m c, entry_main_v10 m c, entry_main_v12 m c, entry_main_v17 m c, entry_main_v18 m c]

/-- The staged second state is `newH2` of the arguments. -/
theorem stagedH2_eq (c : Dev nD) : stagedH2 m c = newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold stagedH2 newH2
  rw [entry_main_v6 m c, entry_main_v7 m c, entry_main_v8 m c, entry_main_v10 m c, entry_main_v12 m c, entry_main_v14 m c, entry_main_v16 m c, entry_main_v17 m c, entry_main_v18 m c, entry_main_v19 m c, entry_main_v20 m c]

/-! ## The host's lines after the kernel, and the run -/

/-- The first result: the new second state with two unit axes in front. -/
theorem result0 (c : Dev nD) :
    Pipeline.afterTail₀ cfgs (dats m) 0 (V0 m) [hostOps1] c main_v22
      = shapeCast S1x1x512 (newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) shapeCasts_S1x512_S1x1x512 := by
  have hw : Pipeline.withArrays spec0 c (V0 m c) (fun w => (dats m 0 c).arrAt w cfg0.N)
      (Proc.devRef .tc (Pipeline.arrRef spec0 11)) = newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (Pipeline.withArrays_arr spec0 launch0.win.arr_inj c (V0 m c) (fun w => (dats m 0 c).arrAt w cfg0.N) 11).trans
      ((final11 m c).trans (stagedH2_eq m c))
  unfold Pipeline.afterTail₀
  show StableHlo.after hostOps1 _ (Proc.devRef .tc main_v22) = _
  after_results
  exact congrArg (fun y => shapeCast S1x1x512 y shapeCasts_S1x512_S1x1x512) hw

/-- The second result: the new first state with two unit axes in front. -/
theorem result1 (c : Dev nD) :
    Pipeline.afterTail₀ cfgs (dats m) 0 (V0 m) [hostOps1] c main_v23
      = shapeCast S1x1x1024 (newH1 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S1x1024_S1x1x1024 := by
  have hw : Pipeline.withArrays spec0 c (V0 m c) (fun w => (dats m 0 c).arrAt w cfg0.N)
      (Proc.devRef .tc (Pipeline.arrRef spec0 12)) = newH1 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    (Pipeline.withArrays_arr spec0 launch0.win.arr_inj c (V0 m c) (fun w => (dats m 0 c).arrAt w cfg0.N) 12).trans
      ((final12 m c).trans (stagedH1_eq m c))
  unfold Pipeline.afterTail₀
  show StableHlo.after hostOps1 _ (Proc.devRef .tc main_v23) = _
  after_results
  exact congrArg (fun y => shapeCast S1x1x1024 y shapeCasts_S1x1024_S1x1x1024) hw

/-- The third result: the new second state again. -/
theorem result2 (c : Dev nD) :
    Pipeline.afterTail₀ cfgs (dats m) 0 (V0 m) [hostOps1] c main_v24
      = shapeCast S1x1x512 (newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) shapeCasts_S1x512_S1x1x512 := by
  have hw : Pipeline.withArrays spec0 c (V0 m c) (fun w => (dats m 0 c).arrAt w cfg0.N)
      (Proc.devRef .tc (Pipeline.arrRef spec0 13)) = newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    (Pipeline.withArrays_arr spec0 launch0.win.arr_inj c (V0 m c) (fun w => (dats m 0 c).arrAt w cfg0.N) 13).trans
      ((final13 m c).trans (stagedH2_eq m c))
  unfold Pipeline.afterTail₀
  show StableHlo.after hostOps1 _ (Proc.devRef .tc main_v24) = _
  after_results
  exact congrArg (fun y => shapeCast S1x1x512 y shapeCasts_S1x512_S1x1x512) hw

/-- The kernel program's run, read: every weakly fair execution terminates with the three results at the new states
    (as functions of the arguments) and the arguments unchanged. -/
theorem run : θ_run defs (onTc (τ := τ) (main (F := F))) ⟨m, fun _ => 0, ρ⟩ fun r => ∀ c : Dev nD,
      r.2.mem ((c.tc : Thread nD τ).loc main_v22) = shapeCast S1x1x512 (newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) shapeCasts_S1x512_S1x1x512
      ∧ r.2.mem ((c.tc : Thread nD τ).loc main_v23) = shapeCast S1x1x1024 (newH1 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S1x1024_S1x1x1024
      ∧ r.2.mem ((c.tc : Thread nD τ).loc main_v24) = shapeCast S1x1x512 (newH2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) shapeCasts_S1x512_S1x1x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨
      (((h c).2 main_v22 (Pipeline.mem_restRefs_of main_v22 (by decide) (by decide))).trans (result0 m c)),
      (((h c).2 main_v23 (Pipeline.mem_restRefs_of main_v23 (by decide) (by decide))).trans (result1 m c)),
      (((h c).2 main_v24 (Pipeline.mem_restRefs_of main_v24 (by decide) (by decide))).trans (result2 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.KValue

end
-- ==== Proof.GateForms.lean ====
/-
  Two spellings of the logistic function, on the extended reals.

  A gated recurrent cell uses the logistic function σ(x) = 1 / (1 + e^(-x)). One program applies it as a single
  operation; the other writes the quotient out: negate, exponentiate, add one, divide one by the sum. On the
  extended reals the single operation is DEFINED as that quotient, with the conventions e^(+∞) = +∞, e^(-∞) = 0,
  1 / (+∞) = 0, so the two agree at every value, the infinities included; the only fact needed is that the
  float word 0x3F800000 denotes the real number 1.

  Also here: narrowing a float format is the identity on the extended reals, and the hyperbolic tangent is one
  function whether a vector unit or the host applies it.
-/
import Idealize.ShloMosaic.PureOps.Ideal
import Idealize.ShloMosaic.PureOps.Ideal.Laws
import Idealize.ShloMosaic.Lib.KernelVsHost

noncomputable section

namespace Cert.GateForms

open Idealize.ShloMosaic

/-- The single-precision word 0x3F800000 (sign 0, biased exponent 127, fraction 0) denotes 1. -/
theorem one_f32 : Ideal.ofBits .f32 0x3F800000#32 = 1 := by
  simp [Ideal.ofBits, Ideal.ieee, -EReal.coe_mul]; norm_num

variable {s : Shape}

/-- σ(x) as one operation is the quotient 1 / (1 + e^(-x)) written with splats of the word for 1, entry by entry:
    both are `Ideal.div 1 (1 + Ideal.exp (-x))` once the word is read as 1. -/
theorem logistic_eq_quotient (v : FVec Ideal s .f32) :
    Host.divf (broadcast s (Scalar.ofBits (F := Ideal) .f32 0x3F800000#32))
        (addf (broadcast s (Scalar.ofBits (F := Ideal) .f32 0x3F800000#32)) (Host.exp (Host.negf v)))
      = logistic v := by
  funext i
  show Ideal.div (Ideal.ofBits .f32 0x3F800000#32) (Ideal.ofBits .f32 0x3F800000#32 + Ideal.exp (-(v i)))
    = Ideal.logistic (v i)
  rw [one_f32]
  rfl

/-- The hyperbolic tangent applied by the host is the one a vector unit applies: the same function of each entry. -/
theorem hostTanh_eq_tanh {φ : FTy} (v : FVec Ideal s φ) : Host.tanh v = tanh v := rfl

/-- Narrowing the float format of a vector changes no entry: a value of the extended reals has no format. -/
theorem truncf_eq_self {φ ψ : FTy} (v : FVec Ideal s φ) (h : ψ.bits < φ.bits) :
    (truncf ψ v h : s.Idx → EReal) = v := rfl

/-- A product whose two operands were first narrowed to another float format is the product of the operands: the
    sum over the shared axis of products of the same extended reals. -/
theorem dotGeneral_narrowed {sl sr so : Shape} {φ₁ φ₂ ψ₁ ψ₂ : FTy} (d : DotDims sl sr so) (prec : Option ContractPrecision)
    (l : FVec Ideal sl φ₁) (r : FVec Ideal sr φ₂) (h₁ : ψ₁.bits < φ₁.bits) (h₂ : ψ₂.bits < φ₂.bits) :
    Host.dotGeneral d prec (truncf ψ₁ l h₁) (truncf ψ₂ r h₂) = Host.dotGeneral d prec l r := rfl

end Cert.GateForms

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.CellBridge.lean ====
/-
  The reference computes what the kernel computes.

  Both programs evaluate the same two-layer gated recurrent cell, and on the extended reals they differ only in
  spelling, step by step:
    * the kernel multiplies by a weight matrix it received already transposed, accumulating into a zero array, and
      the reference contracts with the transpose it forms itself — one sum over the shared axis either way, since
      0 + s = s;
    * the kernel's operands pass through a narrower float format on the way into the product, which changes no
      extended real;
    * the kernel adds a bias it received reshaped to a row, the reference broadcasts the bias along the row — the
      same [1, n] array;
    * the kernel applies the logistic function as one operation, the reference writes 1 / (1 + e^(-x));
    * the kernel splats the scalar 1, the reference broadcasts a rank-0 constant 1.
  Everything else — the thirds of gx and of gh, r·(hidden part), tanh, (1 − z)·n + z·h — is the same
  operation on the same operands. No step moves a factor across a sum or cancels anything, so nothing needs the
  inputs to be finite.
-/
import proofs.«181842_j18863496364259_2_alg».proof.Proof.KernelValue
import proofs.«181842_j18863496364259_2_alg».proof.Proof.Gen.ReferenceIdeal.Read
import proofs.«181842_j18863496364259_2_alg».proof.Proof.GateForms
import proofs.«181842_j18863496364259_2_alg».proof.Proof.LibRowVector
import Idealize.ShloMosaic.Lib.KernelVsHost
import Idealize.ShloMosaic.Lib.Pipeline.Value

set_option maxRecDepth 16384

noncomputable section

namespace Cert.CellBridge

open Idealize.ShloMosaic Cert.ReferenceIdeal.Read Cert.KernelIdeal.KValue

variable (x0 : (⟨Cert.ReferenceIdeal.S1, .i32⟩ : BufTy).Contents (Elt Ideal))
  (x1 : (⟨Cert.ReferenceIdeal.S1x1x1024, .f32⟩ : BufTy).Contents (Elt Ideal))
  (x2 : (⟨Cert.ReferenceIdeal.S1x1x512, .f32⟩ : BufTy).Contents (Elt Ideal))
  (x3 : (⟨Cert.ReferenceIdeal.S50257x1024, .f32⟩ : BufTy).Contents (Elt Ideal))
  (x4 x5 : (⟨Cert.ReferenceIdeal.S3072x1024, .f32⟩ : BufTy).Contents (Elt Ideal))
  (x6 x7 : (⟨Cert.ReferenceIdeal.S3072, .f32⟩ : BufTy).Contents (Elt Ideal))
  (x8 : (⟨Cert.ReferenceIdeal.S1536x1024, .f32⟩ : BufTy).Contents (Elt Ideal))
  (x9 : (⟨Cert.ReferenceIdeal.S1536x512, .f32⟩ : BufTy).Contents (Elt Ideal))
  (x10 x11 : (⟨Cert.ReferenceIdeal.S1536, .f32⟩ : BufTy).Contents (Elt Ideal))

/-- The embedding row: the same gather of the same table at the same wrapped index. -/
theorem embRow_eq : val_main_v6 (F := Ideal) x0 x3 = embRow (F := Ideal) x0 x3 := rfl

/-- The first layer's new state: the reference's stage is the kernel's payload of the host's layouts. -/
theorem firstLayer :
    val_main_v43 (F := Ideal) x0 x1 x3 x4 x5 x6 x7 = newH1 (F := Ideal) x0 x1 x3 x4 x5 x6 x7 := by
  have b6 := Cert.RowVector.reshape_eq_broadcast (n := 3072) x6 Cert.KernelIdeal.Gen.shapeCasts_S3072_S1x3072 Cert.ReferenceIdeal.Gen.bcast_S3072_S1x3072_1
  have b7 := Cert.RowVector.reshape_eq_broadcast (n := 3072) x7 Cert.KernelIdeal.Gen.shapeCasts_S3072_S1x3072 Cert.ReferenceIdeal.Gen.bcast_S3072_S1x3072_1
  unfold newH1 Cert.KernelIdeal.Gen.k0_pay2
  simp only [shapeCast_self, matmul_zero_eq_dotGeneral, Cert.GateForms.dotGeneral_narrowed, b6, b7]
  unfold val_main_v43 val_main_v42 val_main_v41 val_main_v40 val_main_v39 val_main_cst_4 val_main_v38 val_main_v37 val_main_v36 val_main_v35 val_main_v34 val_main_cst_3 val_main_v33 val_main_v32 val_main_cst_2 val_main_v31 val_main_v30 val_main_v29 val_main_v28 val_main_v27 val_main_cst_1 val_main_v26 val_main_v25 val_main_cst val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7
  rw [embRow_eq]
  simp only [broadcastInDim_constant, Cert.GateForms.logistic_eq_quotient]
  rfl

/-- The second layer's new state, its input row the first layer's. -/
theorem secondLayer :
    val_main_v80 (F := Ideal) x0 x1 x2 x3 x4 x5 x6 x7 x8 x9 x10 x11
      = newH2 (F := Ideal) x0 x1 x2 x3 x4 x5 x6 x7 x8 x9 x10 x11 := by
  have b10 := Cert.RowVector.reshape_eq_broadcast (n := 1536) x10 Cert.KernelIdeal.Gen.shapeCasts_S1536_S1x1536 Cert.ReferenceIdeal.Gen.bcast_S1536_S1x1536_1
  have b11 := Cert.RowVector.reshape_eq_broadcast (n := 1536) x11 Cert.KernelIdeal.Gen.shapeCasts_S1536_S1x1536 Cert.ReferenceIdeal.Gen.bcast_S1536_S1x1536_1
  unfold newH2 Cert.KernelIdeal.Gen.k0_pay1 Cert.KernelIdeal.Gen.k0_pay4 Cert.KernelIdeal.Gen.k0_pay5 Cert.KernelIdeal.Gen.k0_pay3
  simp only [shapeCast_self, matmul_zero_eq_dotGeneral, Cert.GateForms.dotGeneral_narrowed, b10, b11]
  unfold val_main_v80 val_main_v79 val_main_v78 val_main_v77 val_main_v76 val_main_cst_9 val_main_v75 val_main_v74 val_main_v73 val_main_v72 val_main_v71 val_main_cst_8 val_main_v70 val_main_v69 val_main_cst_7 val_main_v68 val_main_v67 val_main_v66 val_main_v65 val_main_v64 val_main_cst_6 val_main_v63 val_main_v62 val_main_cst_5 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44
  rw [firstLayer]
  unfold newH1
  generalize Cert.KernelIdeal.Gen.k0_pay2 (F := Ideal) _ _ _ _ _ _ = h1
  simp only [broadcastInDim_constant, Cert.GateForms.logistic_eq_quotient]
  rfl

end Cert.CellBridge

end
-- ==== Proof.lean ====
/-
  A two-layer gated recurrent cell on one row, fused into one kernel, against the same cell written in plain array
  operations: the certificate that the two agree on the extended reals.

  Both programs take a token index, two hidden states, an embedding table, and for each layer two weight matrices
  and two biases; both return the new second state, the new first state, and the new second state again.
  With x the token's embedding row and h the old first state,
    gx = x·W_ihᵀ + b_ih,  gh = h·W_hhᵀ + b_hh,  r = σ(gx₀ + gh₀),  z = σ(gx₁ + gh₁),
    n = tanh(gx₂ + r·gh₂),  h' = (1 − z)·n + z·h,
  and the second layer repeats this with h' as its input row.

  The pieces:
    * Proof/KernelValue.lean reads the kernel program's run: its grid has one point and every block is a whole
      array, so each result is a reshape of the kernel body's stored value, taken over the host's layouts of the
      arguments;
    * Proof/CellBridge.lean shows the reference's stages are those stored values — the two differ only in how a
      product with a transposed matrix, a bias row, the logistic function and the constant one are spelt
      (Proof/GateForms.lean, Proof/LibRowVector.lean);
    * here the three frame claims are the generated frame proofs and the reference's generated run, the kernel is
      its own idealization (no rewrite was applied, so nothing is owed for that), and the two runs are joined
      on arguments that agree.
  No law used needs finite inputs, so the precondition is never opened.
-/
import proofs.«181842_j18863496364259_2_alg».proof.Defs
import proofs.«181842_j18863496364259_2_alg».proof.Proof.Gen.Kernel
import proofs.«181842_j18863496364259_2_alg».proof.Proof.Gen.Kernel.Skeleton
import proofs.«181842_j18863496364259_2_alg».proof.Proof.Gen.Kernel.Launch
import proofs.«181842_j18863496364259_2_alg».proof.Proof.Gen.Kernel.Points
import proofs.«181842_j18863496364259_2_alg».proof.Proof.Gen.Kernel.Frame
import proofs.«181842_j18863496364259_2_alg».proof.Proof.Gen.KernelIdeal
import proofs.«181842_j18863496364259_2_alg».proof.Proof.Gen.KernelIdeal.Skeleton
import proofs.«181842_j18863496364259_2_alg».proof.Proof.Gen.KernelIdeal.Launch
import proofs.«181842_j18863496364259_2_alg».proof.Proof.Gen.KernelIdeal.Points
import proofs.«181842_j18863496364259_2_alg».proof.Proof.Gen.KernelIdeal.Frame
import proofs.«181842_j18863496364259_2_alg».proof.Proof.Gen.ReferenceIdeal
import proofs.«181842_j18863496364259_2_alg».proof.Proof.Gen.ReferenceIdeal.Run
import proofs.«181842_j18863496364259_2_alg».proof.Proof.Gen.ReferenceIdeal.Read
import proofs.«181842_j18863496364259_2_alg».proof.Proof.Gen.Pre_finite_inputs
import proofs.«181842_j18863496364259_2_alg».proof.Proof.KernelValue
import proofs.«181842_j18863496364259_2_alg».proof.Proof.CellBridge
import Idealize.ShloMosaic.Adequacy
import Idealize.ShloMosaic.Init

noncomputable section

namespace Cert.Proof

open Idealize.ShloMosaic Idealize.SL.Sem

/-- The kernel program as printed runs to the end, faults nowhere and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- And the reference: its run, with what it says of the three results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- Reading the kernel on the extended reals rewrote no operation. -/
theorem preserves : Cert.preserves_Kernel_KernelIdeal := trivial

/-- From arguments that agree, both programs end with the new second state, the new first state and the new
    second state, each with two unit axes in front: the kernel's run gives them as the stored values, and the
    reference's stages are those stored values. -/
theorem algebraic : Cert.algebraic_KernelIdeal_ReferenceIdeal := by
  intro m ρ m' ρ' _ hagree
  refine ⟨_, _, _, Cert.KernelIdeal.KValue.run (F := Ideal) m ρ, ?_⟩
  refine (θ_run Cert.ReferenceIdeal.defs _ _).mono (fun _ h c => ?_)
    (Cert.ReferenceIdeal.Value.run (F := Ideal) m' ρ')
  obtain ⟨h0, h1, h2, hrest⟩ := h c
  obtain ⟨a0, a1, a2, a3, a4, a5, a6, a7, a8, a9, a10, a11⟩ := hagree c
  refine ⟨?_, ?_, ?_, hrest⟩
  · rw [h0, Cert.ReferenceIdeal.Read.val_main_v81_eq, a0, a1, a2, a3, a4, a5, a6, a7, a8, a9, a10, a11]
    unfold Cert.ReferenceIdeal.Read.val_main_v81
    rw [Cert.CellBridge.secondLayer]
  · rw [h1, Cert.ReferenceIdeal.Read.val_main_v82_eq, a0, a1, a3, a4, a5, a6, a7]
    unfold Cert.ReferenceIdeal.Read.val_main_v82
    rw [Cert.CellBridge.firstLayer]
  · rw [h2, Cert.ReferenceIdeal.Read.val_main_v83_eq, a0, a1, a2, a3, a4, a5, a6, a7, a8, a9, a10, a11]
    unfold Cert.ReferenceIdeal.Read.val_main_v83
    rw [Cert.CellBridge.secondLayer]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
